-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S1x128 : Shape := ⟨2, ![1, 128]⟩
abbrev S50000 : Shape := ⟨1, ![50000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S1x128 : S_.BroadcastsInDim S1x128 (![] : Fin 0 → Fin S1x128.rank)
  reducesTo_S1x128_S_d0_1 : S1x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256 .f32) (main_arg7 : FVec F S128x256 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S800000x128 .f32) (main_arg3 : FVec F S1x128 .f32) (main_arg4 : IVec S50000 32) (main_arg5 : FVec F S256x256 .f32) (main_arg6 : FVec F S256 .f32) (main_arg7 : FVec F S128x256 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S1x128 : Shape := ⟨2, ![1, 128]⟩
abbrev S50000 : Shape := ⟨1, ![50000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S256x128 : Shape := ⟨2, ![256, 128]⟩
abbrev S1x256 : Shape := ⟨2, ![1, 256]⟩
abbrev S5000x128 : Shape := ⟨2, ![5000, 128]⟩
abbrev S5000x256 : Shape := ⟨2, ![5000, 256]⟩

abbrev nBuf : Space → Nat
  | .hbm => 26
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S1x128, .f32⟩
  | .hbm, ⟨4, _⟩ => ⟨S50000, .i32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x128, .f32⟩
  | .hbm, ⟨13, _⟩ => ⟨S800000x1, .i32⟩
  | .hbm, ⟨14, _⟩ => ⟨S50000x128, .f32⟩
  | .hbm, ⟨15, _⟩ => ⟨S256x128, .f32⟩
  | .hbm, ⟨16, _⟩ => ⟨S128x256, .f32⟩
  | .hbm, ⟨17, _⟩ => ⟨S128x256, .bf16⟩
  | .hbm, ⟨18, _⟩ => ⟨S256x128, .f32⟩
  | .hbm, ⟨19, _⟩ => ⟨S128x256, .f32⟩
  | .hbm, ⟨20, _⟩ => ⟨S128x256, .bf16⟩
  | .hbm, ⟨21, _⟩ => ⟨S256x128, .f32⟩
  | .hbm, ⟨22, _⟩ => ⟨S256x128, .bf16⟩
  | .hbm, ⟨23, _⟩ => ⟨S1x256, .f32⟩
  | .hbm, ⟨24, _⟩ => ⟨S1x128, .f32⟩
  | .hbm, ⟨25, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  slices_S256x256_S256x128_0_0 : S256x256.Slices ![0, 0] S256x128
  transposes_S256x128_S128x256_1_0 : S256x128.Transposes [1, 0] S128x256
  bitsLt_bf16_f32 : FTy.bits .bf16 < FTy.bits .f32
  slices_S256x256_S256x128_0_128 : S256x256.Slices ![0, 128] S256x128
  transposes_S128x256_S256x128_1_0 : S128x256.Transposes [1, 0] S256x128
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S1x128 : Shape := ⟨2, ![1, 128]⟩
abbrev S50000 : Shape := ⟨1, ![50000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S1x256 : Shape := ⟨2, ![1, 256]⟩
abbrev S256x128 : Shape := ⟨2, ![256, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S1x128, .f32⟩
  | .hbm, ⟨4, _⟩ => ⟨S50000, .i32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x128, .f32⟩
  | .hbm, ⟨13, _⟩ => ⟨S800000x1, .i32⟩
  | .hbm, ⟨14, _⟩ => ⟨S50000x128, .f32⟩
  | .hbm, ⟨15, _⟩ => ⟨S50000x256, .f32⟩
  | .hbm, ⟨16, _⟩ => ⟨S256x256, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S256x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The function both programs compute, written once over plain extended reals.

  A node's row of 128 features `xr` and its row of 128 aggregated edge features `ar` stand for ONE row of 256
  numbers, the node half first. The first layer's weight `W1` is a 256 × 256 matrix read by (output unit, input
  column), so the layer's pre-activation at unit `h` is the sum over all 256 input columns of that row times
  row `h` of `W1`, plus the bias. Splitting the 256 columns into the node half (`lo k`, column `k`) and the
  aggregate half (`hi k`, column `128 + k`) gives the two 128-term sums below: a sum over `Fin 256` is the sum over
  its first 128 indices plus the sum over its last 128 (`sum_halves`), which holds in any commutative additive
  monoid, so also on the extended reals with their infinities. The second layer is a plain 256-term sum against
  `W2`, read by (output feature, hidden unit), plus its bias.
-/
import Idealize.ShloMosaic.PureOps.Ideal
import Idealize.ShloMosaic.Lib.ValueIdx

noncomputable section

open scoped BigOperators

namespace Cert.Mlp

open Idealize.ShloMosaic Idealize.ShloMosaic.ValueIdx

/-- Column `k` of the node half of a concatenated 256-wide row. -/
abbrev lo (k : Fin 128) : Fin 256 := ⟨k.val, by omega⟩
/-- Column `128 + k`: column `k` of the aggregate half. -/
abbrev hi (k : Fin 128) : Fin 256 := ⟨128 + k.val, by omega⟩

/-- A sum over 256 indices is the sum over the first 128 plus the sum over the last 128. Only commutativity and
    associativity of addition are used, so no finiteness is needed on the extended reals. -/
theorem sum_halves {M : Type*} [AddCommMonoid M] (f : Fin 256 → M) :
    ∑ k : Fin 256, f k = (∑ k : Fin 128, f (lo k)) + ∑ k : Fin 128, f (hi k) :=
  Fin.sum_univ_add (a := 128) (b := 128) f

/-- The hidden layer at unit `h` for one node: `relu (xr · W1[h, :128] + ar · W1[h, 128:] + b1[h])`; the threshold is
    the f32 zero word read as an extended real. -/
def hidden (xr ar : Fin 128 → EReal) (W1 : (⟨2, ![256, 256]⟩ : Shape).Idx → EReal)
    (b1 : (⟨1, ![256]⟩ : Shape).Idx → EReal) (h : Fin 256) : EReal :=
  max ((∑ k : Fin 128, xr k * W1 (ix2 h (lo k))) + (∑ k : Fin 128, ar k * W1 (ix2 h (hi k))) + b1 (ix1 h))
    (Ideal.ofBits .f32 0x00000000#32)

/-- Output feature `q` for one node: `hidden · W2[q, :] + b2[q]`. -/
def outRow (xr ar : Fin 128 → EReal) (W1 : (⟨2, ![256, 256]⟩ : Shape).Idx → EReal)
    (b1 : (⟨1, ![256]⟩ : Shape).Idx → EReal) (W2 : (⟨2, ![128, 256]⟩ : Shape).Idx → EReal)
    (b2 : (⟨1, ![128]⟩ : Shape).Idx → EReal) (q : Fin 128) : EReal :=
  (∑ h : Fin 256, hidden xr ar W1 b1 h * W2 (ix2 q h)) + b2 (ix1 q)

/-- The whole 50000 × 128 result from the node features `x`, the aggregated edge features `agg` and the two layers'
    parameters: entry (n, q) is `outRow` of node `n`'s two rows. -/
def out (x agg : (⟨2, ![50000, 128]⟩ : Shape).Idx → EReal) (W1 : (⟨2, ![256, 256]⟩ : Shape).Idx → EReal)
    (b1 : (⟨1, ![256]⟩ : Shape).Idx → EReal) (W2 : (⟨2, ![128, 256]⟩ : Shape).Idx → EReal)
    (b2 : (⟨1, ![128]⟩ : Shape).Idx → EReal) : (⟨2, ![50000, 128]⟩ : Shape).Idx → EReal :=
  fun i => outRow (fun k => x (ix2 (n0 := 50000) (i 0) k)) (fun k => agg (ix2 (n0 := 50000) (i 0) k)) W1 b1 W2 b2 (i 1)

/-- At an index given by its coordinates. -/
theorem out_ix2 (x agg : (⟨2, ![50000, 128]⟩ : Shape).Idx → EReal) (W1 : (⟨2, ![256, 256]⟩ : Shape).Idx → EReal)
    (b1 : (⟨1, ![256]⟩ : Shape).Idx → EReal) (W2 : (⟨2, ![128, 256]⟩ : Shape).Idx → EReal)
    (b2 : (⟨1, ![128]⟩ : Shape).Idx → EReal) (n : Fin 50000) (q : Fin 128) :
    out x agg W1 b1 W2 b2 (ix2 n q) = outRow (fun k => x (ix2 n k)) (fun k => agg (ix2 n k)) W1 b1 W2 b2 q := rfl

end Cert.Mlp

end
-- ==== Proof.KernelBody.lean ====
/-
  The kernel body's stored value, read at one entry (p, q) of a 5000-row block.

  The body multiplies the node block and the aggregate block by the two halves of the first layer's weight (each a
  128-term contraction into a zero accumulator), adds the two products and the bias row, takes the maximum with zero,
  multiplies by the second layer's weight (a 256-term contraction into a zero accumulator) and adds the second bias row.
  On the extended reals the narrowing to bf16 before each product is the identity, so entry (p, q) is `Mlp.outRow` of
  row `p` of the two input blocks, provided the weight and bias blocks are the transposed halves of `W1`, the
  transpose of `W2` and the biases laid out as single rows (`h2` … `h6`).
-/
import proofs.«158334_j28346784153766_1_alg».proof.Proof.Gen.KernelIdeal.Skeleton
import proofs.«158334_j28346784153766_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first layer's contraction: a [5000,128] block times a [128,256] block. -/
abbrev D1 : DotDims S5000x128 S128x256 S5000x256 := dot_S5000x128_S128x256_S5000x256_1_0_0_1_n_n
/-- The second layer's contraction: a [5000,256] block times a [256,128] block. -/
abbrev D2 : DotDims S5000x256 S256x128 S5000x128 := dot_S5000x256_S256x128_S5000x128_1_0_0_1_n_n

/-! ## The operand indices of the two contractions -/

theorem d1_lhs0 (i : S5000x256.Idx) (q : D1.contr.Idx) : (D1.lhsIdx i q 0).val = (i 0).val := by
  unfold DotDims.lhsIdx
  rw [dif_neg (show ¬(0 : Fin S5000x128.rank) ∈ D1.lhsBatch by decide), dif_pos (show (0 : Fin S5000x128.rank) ∈ D1.lhsNonContracting by decide)]
  rfl
theorem d1_lhs1 (i : S5000x256.Idx) (q : D1.contr.Idx) : (D1.lhsIdx i q 1).val = (q ⟨0, by decide⟩).val :=
  D1.lhsIdx_val_of_single rfl i q
theorem d1_rhs0 (i : S5000x256.Idx) (q : D1.contr.Idx) : (D1.rhsIdx i q 0).val = (q ⟨0, by decide⟩).val :=
  D1.rhsIdx_val_of_single rfl i q
theorem d1_rhs1 (i : S5000x256.Idx) (q : D1.contr.Idx) : (D1.rhsIdx i q 1).val = (i 1).val := by
  unfold DotDims.rhsIdx
  rw [dif_neg (show ¬(1 : Fin S128x256.rank) ∈ D1.rhsBatch by decide), dif_pos (show (1 : Fin S128x256.rank) ∈ D1.rhsNonContracting by decide)]
  rfl

theorem d2_lhs0 (i : S5000x128.Idx) (q : D2.contr.Idx) : (D2.lhsIdx i q 0).val = (i 0).val := by
  unfold DotDims.lhsIdx
  rw [dif_neg (show ¬(0 : Fin S5000x256.rank) ∈ D2.lhsBatch by decide), dif_pos (show (0 : Fin S5000x256.rank) ∈ D2.lhsNonContracting by decide)]
  rfl
theorem d2_lhs1 (i : S5000x128.Idx) (q : D2.contr.Idx) : (D2.lhsIdx i q 1).val = (q ⟨0, by decide⟩).val :=
  D2.lhsIdx_val_of_single rfl i q
theorem d2_rhs0 (i : S5000x128.Idx) (q : D2.contr.Idx) : (D2.rhsIdx i q 0).val = (q ⟨0, by decide⟩).val :=
  D2.rhsIdx_val_of_single rfl i q
theorem d2_rhs1 (i : S5000x128.Idx) (q : D2.contr.Idx) : (D2.rhsIdx i q 1).val = (i 1).val := by
  unfold DotDims.rhsIdx
  rw [dif_neg (show ¬(1 : Fin S256x128.rank) ∈ D2.rhsBatch by decide), dif_pos (show (1 : Fin S256x128.rank) ∈ D2.rhsNonContracting by decide)]
  rfl

/-! ## The two matrix products at an entry -/

/-- A [5000,128] × [128,256] product into a zero accumulator, at entry (p, h): the sum over the 128 shared
    coordinates. -/
theorem mm1_apply (l : FVec Ideal S5000x128 .bf16) (r : FVec Ideal S128x256 .bf16) (p : Fin 5000) (h : Fin 256) :
    matmul D1 none l r (constant (F := Ideal) S5000x256 .f32 0x00000000#32) (ix2 p h)
      = ∑ k : Fin 128, l (ix2 p k) * r (ix2 k h) := by
  simp only [matmul]
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p h) ((contrEquiv1 D1 128 rfl rfl).symm k) = ix2 p k := funext fun a => Fin.ext (by
    match a with
    | ⟨0, _⟩ => exact d1_lhs0 _ _
    | ⟨1, _⟩ => exact (d1_lhs1 _ _).trans hk)
  have er : D1.rhsIdx (ix2 p h) ((contrEquiv1 D1 128 rfl rfl).symm k) = ix2 k h := funext fun a => Fin.ext (by
    match a with
    | ⟨0, _⟩ => exact (d1_rhs0 _ _).trans hk
    | ⟨1, _⟩ => exact d1_rhs1 _ _)
  rw [el, er]

/-- A [5000,256] × [256,128] product into a zero accumulator, at entry (p, q): the sum over the 256 shared
    coordinates. -/
theorem mm2_apply (l : FVec Ideal S5000x256 .bf16) (r : FVec Ideal S256x128 .bf16) (p : Fin 5000) (q : Fin 128) :
    matmul D2 none l r (constant (F := Ideal) S5000x128 .f32 0x00000000#32) (ix2 p q)
      = ∑ h : Fin 256, l (ix2 p h) * r (ix2 h q) := by
  simp only [matmul]
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 p q) ((contrEquiv1 D2 256 rfl rfl).symm k) = ix2 p k := funext fun a => Fin.ext (by
    match a with
    | ⟨0, _⟩ => exact d2_lhs0 _ _
    | ⟨1, _⟩ => exact (d2_lhs1 _ _).trans hk)
  have er : D2.rhsIdx (ix2 p q) ((contrEquiv1 D2 256 rfl rfl).symm k) = ix2 k q := funext fun a => Fin.ext (by
    match a with
    | ⟨0, _⟩ => exact (d2_rhs0 _ _).trans hk
    | ⟨1, _⟩ => exact d2_rhs1 _ _)
  rw [el, er]

/-! ## The stored value at an entry -/

/-- The hidden activation at entry (p, h): the two 128-term products added, the bias row added, the maximum with
    zero taken. -/
theorem hidden_apply (x0 x1 : FVec Ideal S5000x128 .f32) (x2 x3 : FVec Ideal S128x256 .bf16) (x4 : FVec Ideal S1x256 .f32)
    (W1 : S256x256.Idx → EReal) (b1 : S256.Idx → EReal)
    (h2 : ∀ (k : Fin 128) (h : Fin 256), x2 (ix2 k h) = W1 (ix2 h (Cert.Mlp.lo k)))
    (h3 : ∀ (k : Fin 128) (h : Fin 256), x3 (ix2 k h) = W1 (ix2 h (Cert.Mlp.hi k)))
    (h4 : ∀ h : Fin 256, x4 (ix2 (0 : Fin 1) h) = b1 (ix1 h))
    (p : Fin 5000) (h : Fin 256) :
    maximumf
        (addf
          (addf
            (matmul D1 none (truncf .bf16 x0 bitsLt_bf16_f32) x2 (constant (F := Ideal) S5000x256 .f32 0x00000000#32))
            (matmul D1 none (truncf .bf16 x1 bitsLt_bf16_f32) x3 (constant (F := Ideal) S5000x256 .f32 0x00000000#32)))
          (broadcastTo S5000x256 x4 broadcasts_S1x256_S5000x256))
        (broadcast S5000x256 (FloatOps.ofBits (F := Ideal) .f32 0x00000000#32)) (ix2 p h)
      = Cert.Mlp.hidden (fun k => x0 (ix2 p k)) (fun k => x1 (ix2 p k)) W1 b1 h := by
  show max ((matmul (F := Ideal) D1 none (truncf .bf16 x0 bitsLt_bf16_f32) x2 _ (ix2 p h)
      + matmul (F := Ideal) D1 none (truncf .bf16 x1 bitsLt_bf16_f32) x3 _ (ix2 p h))
      + broadcastTo S5000x256 x4 broadcasts_S1x256_S5000x256 (ix2 p h)) (Ideal.ofBits .f32 0x00000000#32) = _
  rw [mm1_apply, mm1_apply, broadcastTo_1b_ab_apply, h4]
  unfold Cert.Mlp.hidden
  simp only [truncf_apply, h2, h3]

/-- THE STORED VALUE at entry (p, q) of a block: `Mlp.outRow` of row `p` of the node block and of the aggregate block. -/
theorem pay_spec (x0 x1 : FVec Ideal S5000x128 .f32) (x2 x3 : FVec Ideal S128x256 .bf16) (x4 : FVec Ideal S1x256 .f32)
    (x5 : FVec Ideal S256x128 .bf16) (x6 : FVec Ideal S1x128 .f32)
    (W1 : S256x256.Idx → EReal) (b1 : S256.Idx → EReal) (W2 : S128x256.Idx → EReal) (b2 : S128.Idx → EReal)
    (h2 : ∀ (k : Fin 128) (h : Fin 256), x2 (ix2 k h) = W1 (ix2 h (Cert.Mlp.lo k)))
    (h3 : ∀ (k : Fin 128) (h : Fin 256), x3 (ix2 k h) = W1 (ix2 h (Cert.Mlp.hi k)))
    (h4 : ∀ h : Fin 256, x4 (ix2 (0 : Fin 1) h) = b1 (ix1 h))
    (h5 : ∀ (h : Fin 256) (q : Fin 128), x5 (ix2 h q) = W2 (ix2 q h))
    (h6 : ∀ q : Fin 128, x6 (ix2 (0 : Fin 1) q) = b2 (ix1 q))
    (p : Fin 5000) (q : Fin 128) :
    k0_pay1 (F := Ideal) x0 x1 x2 x3 x4 x5 x6 (ix2 p q)
      = Cert.Mlp.outRow (fun k => x0 (ix2 p k)) (fun k => x1 (ix2 p k)) W1 b1 W2 b2 q := by
  unfold k0_pay1
  simp only [shapeCast_self]
  show matmul (F := Ideal) (φ₁ := .bf16) D2 none _ x5 _ (ix2 p q) + broadcastTo S5000x128 x6 broadcasts_S1x128_S5000x128 (ix2 p q) = _
  rw [mm2_apply, broadcastTo_1b_ab_apply, h6]
  unfold Cert.Mlp.outRow
  refine congrArg (· + b2 (ix1 q)) (Finset.sum_congr rfl fun h _ => ?_)
  rw [h5]
  exact congrArg (· * W2 (ix2 q h)) (hidden_apply x0 x1 x2 x3 x4 W1 b1 h2 h3 h4 p h)

end Cert.KernelIdeal.Body

end
-- ==== Proof.KernelHost.lean ====
/-
  The arrays the kernel's region finds, as functions of the program's arguments.

  Before the region the program prepares its operands on the host: the aggregated edge features (a scatter-add of
  the edge features by destination node — carried here as one opaque array, never opened), the two halves of the
  first-layer weight `W1` (columns 0–127 and 128–255), each transposed, the transposed second-layer weight `W2`, and
  the two biases recast as single rows. Read at an entry: the transposed left half at (k, h) is `W1` at (h, k), the
  transposed right half at (k, h) is `W1` at (h, 128 + k), the transposed `W2` at (h, q) is `W2` at (q, h), and a bias
  row at (0, j) is the bias at j. The narrowing to bf16 is the identity on the extended reals.
-/
import proofs.«158334_j28346784153766_1_alg».proof.Proof.Gen.KernelIdeal.Frame
import proofs.«158334_j28346784153766_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The host operations' terms -/

/-- The aggregated edge features: the scatter-add of the edge features into a zero array, by the second row of the
    edge index. -/
def agg (c : Dev nD) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] (m ((c : Thread nD τ).loc main_arg1)) slices_S2x800000_S1x800000_1_0)
        shapeCasts_S1x800000_S800000))
    (m ((c : Thread nD τ).loc main_arg2))

theorem V_agg (c : Dev nD) : (V m c main_v4 : S50000x128.Idx → EReal) = agg m c := by
  unfold agg
  dsimp only [V, hostOps0]
  after_results <;> rfl

theorem V_w1a (c : Dev nD) : (V m c main_v7 : S128x256.Idx → EReal)
    = truncf (F := Ideal) .bf16 (transpose S128x256 [1, 0] (extractStridedSlice S256x128 ![0, 0] (m ((c : Thread nD τ).loc main_arg5)) slices_S256x256_S256x128_0_0) transposes_S256x128_S128x256_1_0) bitsLt_bf16_f32 := by
  dsimp only [V, hostOps0]
  after_results <;> rfl

theorem V_w1b (c : Dev nD) : (V m c main_v10 : S128x256.Idx → EReal)
    = truncf (F := Ideal) .bf16 (transpose S128x256 [1, 0] (extractStridedSlice S256x128 ![0, 128] (m ((c : Thread nD τ).loc main_arg5)) slices_S256x256_S256x128_0_128) transposes_S256x128_S128x256_1_0) bitsLt_bf16_f32 := by
  dsimp only [V, hostOps0]
  after_results <;> rfl

theorem V_w2t (c : Dev nD) : (V m c main_v12 : S256x128.Idx → EReal)
    = truncf (F := Ideal) .bf16 (transpose S256x128 [1, 0] (m ((c : Thread nD τ).loc main_arg7)) transposes_S128x256_S256x128_1_0) bitsLt_bf16_f32 := by
  dsimp only [V, hostOps0]
  after_results <;> rfl

theorem V_b1 (c : Dev nD) : (V m c main_v13 : S1x256.Idx → EReal)
    = shapeCast S1x256 (m ((c : Thread nD τ).loc main_arg6)) shapeCasts_S256_S1x256 := by
  dsimp only [V, hostOps0]
  after_results <;> rfl

theorem V_b2 (c : Dev nD) : (V m c main_v14 : S1x128.Idx → EReal)
    = shapeCast S1x128 (m ((c : Thread nD τ).loc main_arg8)) shapeCasts_S128_S1x128 := by
  dsimp only [V, hostOps0]
  after_results <;> rfl

/-! ## Read at an entry -/

/-- The transposed left half of `W1` at (k, h) is `W1` at (h, k). -/
theorem w1a_apply (c : Dev nD) (k : Fin 128) (h : Fin 256) :
    (V m c main_v7 : S128x256.Idx → EReal) (ix2 k h) = m ((c : Thread nD τ).loc main_arg5) (ix2 h (Cert.Mlp.lo k)) := by
  rw [V_w1a]
  show transpose S128x256 [1, 0] (extractStridedSlice S256x128 ![0, 0] (m ((c : Thread nD τ).loc main_arg5)) slices_S256x256_S256x128_0_0) transposes_S256x128_S128x256_1_0 (ix2 k h) = _
  rw [transpose_ix2_apply]
  exact slice2_axis1_apply 0 _ _ h k (Cert.Mlp.lo k) (Nat.zero_add _).symm

/-- The transposed right half of `W1` at (k, h) is `W1` at (h, 128 + k). -/
theorem w1b_apply (c : Dev nD) (k : Fin 128) (h : Fin 256) :
    (V m c main_v10 : S128x256.Idx → EReal) (ix2 k h) = m ((c : Thread nD τ).loc main_arg5) (ix2 h (Cert.Mlp.hi k)) := by
  rw [V_w1b]
  show transpose S128x256 [1, 0] (extractStridedSlice S256x128 ![0, 128] (m ((c : Thread nD τ).loc main_arg5)) slices_S256x256_S256x128_0_128) transposes_S256x128_S128x256_1_0 (ix2 k h) = _
  rw [transpose_ix2_apply]
  exact slice2_axis1_apply 128 _ _ h k (Cert.Mlp.hi k) rfl

/-- The transposed `W2` at (h, q) is `W2` at (q, h). -/
theorem w2t_apply (c : Dev nD) (h : Fin 256) (q : Fin 128) :
    (V m c main_v12 : S256x128.Idx → EReal) (ix2 h q) = m ((c : Thread nD τ).loc main_arg7) (ix2 q h) := by
  rw [V_w2t]
  show transpose S256x128 [1, 0] (m ((c : Thread nD τ).loc main_arg7)) transposes_S128x256_S256x128_1_0 (ix2 h q) = _
  rw [transpose_ix2_apply]

/-- The first bias as one row, at (0, h). -/
theorem b1_apply (c : Dev nD) (h : Fin 256) :
    (V m c main_v13 : S1x256.Idx → EReal) (ix2 (0 : Fin 1) h) = m ((c : Thread nD τ).loc main_arg6) (ix1 h) := by
  rw [V_b1]
  exact shapeCast_a_1a_apply _ _ 0 h

/-- The second bias as one row, at (0, q). -/
theorem b2_apply (c : Dev nD) (q : Fin 128) :
    (V m c main_v14 : S1x128.Idx → EReal) (ix2 (0 : Fin 1) q) = m ((c : Thread nD τ).loc main_arg8) (ix1 q) := by
  rw [V_b2]
  exact shapeCast_a_1a_apply _ _ 0 q

end Cert.KernelIdeal.HostSide

end
-- ==== Proof.KernelValue.lean ====
/-
  The kernel's result array after the run is `Mlp.out` of the program's arguments.

  The grid has ten points; point `t` works on rows 5000 t … 5000 t + 4999: it reads that block of the node features and
  of the aggregated edge features, the whole of each weight and bias operand, and writes back that block of the
  result. So entry (p, q) of what point `t` writes is `Mlp.outRow` of row 5000 t + p of the two inputs, which is
  `Mlp.out` at (5000 t + p, q): each write-back is the block of ONE whole-array function. The ten blocks cover
  the 50000 rows (row `r` lies in block `r / 5000`), hence the array ends as that function.
-/
import proofs.«158334_j28346784153766_1_alg».proof.Proof.Gen.KernelIdeal.Value
import proofs.«158334_j28346784153766_1_alg».proof.Proof.Spec
import proofs.«158334_j28346784153766_1_alg».proof.Proof.KernelBody
import proofs.«158334_j28346784153766_1_alg».proof.Proof.KernelHost
import Idealize.ShloMosaic.Lib.Pipeline.Value
import Idealize.ShloMosaic.Lib.ValueIdx

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the result array holds after the run. -/
def result (c : Dev nD) : S50000x128.Idx → EReal :=
  Cert.Mlp.out (m ((c : Thread nD τ).loc main_arg0)) (HostSide.agg m c) (m ((c : Thread nD τ).loc main_arg5)) (m ((c : Thread nD τ).loc main_arg6))
    (m ((c : Thread nD τ).loc main_arg7)) (m ((c : Thread nD τ).loc main_arg8))

/-- The block index of every window at every grid point, decided over the ten points: the node features, the
    aggregated edge features and the result move down the rows with the point; every other operand stays at its one
    block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks at a point, read at an entry -/

/-- Row `p` of the node-feature block at point `t` is row `5000 t + p` of the node features. -/
theorem blk0_apply (c : Dev nD) (t : Fin cfg0.N) (p : Fin 5000) (k : Fin 128) (n : Fin 50000) (hn : n.val = t.val * 5000 + p.val) :
    (iblk m c 0 t : S5000x128.Idx → EReal) (ix2 p k) = m ((c : Thread nD τ).loc main_arg0) (ix2 n k) := by
  obtain ⟨e0, e1, -⟩ := idx_facts t
  unfold iblk
  rw [View.read_apply]
  show V m c main_arg0 _ = _
  rw [V_main_arg0]
  refine congrArg (m ((c : Thread nD τ).loc main_arg0) : S50000x128.Idx → EReal) (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Row `p` of block `t` of ANY 50000 × 128 array laid out as the aggregated edge features are is row `5000 t + p` of
    the array (stated for a variable array, so that nothing about its contents is ever opened). -/
theorem read_blk1 (A : S50000x128.Idx → EReal) (t : Fin cfg0.N) (p : Fin 5000) (k : Fin 128) (n : Fin 50000)
    (hn : n.val = t.val * 5000 + p.val) :
    (((cfg0.win 1).blk t).view.read (Elt Ideal) A : S5000x128.Idx → EReal) (ix2 p k) = A (ix2 n k) := by
  obtain ⟨-, -, e0, e1, -⟩ := idx_facts t
  rw [View.read_apply]
  show A _ = _
  refine congrArg A (funext fun a => Fin.ext ?_)
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- Row `p` of the aggregate block at point `t` is row `5000 t + p` of the aggregated edge features. -/
theorem blk1_apply (c : Dev nD) (t : Fin cfg0.N) (p : Fin 5000) (k : Fin 128) (n : Fin 50000) (hn : n.val = t.val * 5000 + p.val) :
    (iblk m c 1 t : S5000x128.Idx → EReal) (ix2 p k) = HostSide.agg m c (ix2 n k) := by
  have hA : (V m c (Pipeline.arrRef spec0 1) : S50000x128.Idx → EReal) = HostSide.agg m c := HostSide.V_agg m c
  unfold iblk
  rw [hA]
  exact read_blk1 (HostSide.agg m c) t p k n hn

/-- The transposed left half of the first-layer weight is read whole at every point. -/
theorem blk2_apply (c : Dev nD) (t : Fin cfg0.N) (i : Fin 128) (j : Fin 256) :
    (iblk m c 2 t : S128x256.Idx → EReal) (ix2 i j) = (V m c main_v7 : S128x256.Idx → EReal) (ix2 i j) := by
  obtain ⟨-, -, -, -, e0, e1, -⟩ := idx_facts t
  unfold iblk
  rw [View.read_apply]
  show V m c main_v7 _ = _
  refine congrArg (V m c main_v7 : S128x256.Idx → EReal) (funext fun a => Fin.ext ?_)
  match a with
  | ⟨0, _⟩ => show win0_2.index t (0 : Fin 2) * 128 + 1 * i.val = i.val; rw [e0]; omega
  | ⟨1, _⟩ => show win0_2.index t (1 : Fin 2) * 256 + 1 * j.val = j.val; rw [e1]; omega

/-- The transposed right half of the first-layer weight is read whole at every point. -/
theorem blk3_apply (c : Dev nD) (t : Fin cfg0.N) (i : Fin 128) (j : Fin 256) :
    (iblk m c 3 t : S128x256.Idx → EReal) (ix2 i j) = (V m c main_v10 : S128x256.Idx → EReal) (ix2 i j) := by
  obtain ⟨-, -, -, -, -, -, e0, e1, -⟩ := idx_facts t
  unfold iblk
  rw [View.read_apply]
  show V m c main_v10 _ = _
  refine congrArg (V m c main_v10 : S128x256.Idx → EReal) (funext fun a => Fin.ext ?_)
  match a with
  | ⟨0, _⟩ => show win0_3.index t (0 : Fin 2) * 128 + 1 * i.val = i.val; rw [e0]; omega
  | ⟨1, _⟩ => show win0_3.index t (1 : Fin 2) * 256 + 1 * j.val = j.val; rw [e1]; omega

/-- The first bias row is read whole at every point. -/
theorem blk4_apply (c : Dev nD) (t : Fin cfg0.N) (i : Fin 1) (j : Fin 256) :
    (iblk m c 4 t : S1x256.Idx → EReal) (ix2 i j) = (V m c main_v13 : S1x256.Idx → EReal) (ix2 i j) := by
  obtain ⟨-, -, -, -, -, -, -, -, e0, e1, -⟩ := idx_facts t
  unfold iblk
  rw [View.read_apply]
  show V m c main_v13 _ = _
  refine congrArg (V m c main_v13 : S1x256.Idx → EReal) (funext fun a => Fin.ext ?_)
  match a with
  | ⟨0, _⟩ => show win0_4.index t (0 : Fin 2) * 1 + 1 * i.val = i.val; rw [e0]; omega
  | ⟨1, _⟩ => show win0_4.index t (1 : Fin 2) * 256 + 1 * j.val = j.val; rw [e1]; omega

/-- The transposed second-layer weight is read whole at every point. -/
theorem blk5_apply (c : Dev nD) (t : Fin cfg0.N) (i : Fin 256) (j : Fin 128) :
    (iblk m c 5 t : S256x128.Idx → EReal) (ix2 i j) = (V m c main_v12 : S256x128.Idx → EReal) (ix2 i j) := by
  obtain ⟨-, -, -, -, -, -, -, -, -, -, e0, e1, -⟩ := idx_facts t
  unfold iblk
  rw [View.read_apply]
  show V m c main_v12 _ = _
  refine congrArg (V m c main_v12 : S256x128.Idx → EReal) (funext fun a => Fin.ext ?_)
  match a with
  | ⟨0, _⟩ => show win0_5.index t (0 : Fin 2) * 256 + 1 * i.val = i.val; rw [e0]; omega
  | ⟨1, _⟩ => show win0_5.index t (1 : Fin 2) * 128 + 1 * j.val = j.val; rw [e1]; omega

/-- The second bias row is read whole at every point. -/
theorem blk6_apply (c : Dev nD) (t : Fin cfg0.N) (i : Fin 1) (j : Fin 128) :
    (iblk m c 6 t : S1x128.Idx → EReal) (ix2 i j) = (V m c main_v14 : S1x128.Idx → EReal) (ix2 i j) := by
  obtain ⟨-, -, -, -, -, -, -, -, -, -, -, -, e0, e1, -⟩ := idx_facts t
  unfold iblk
  rw [View.read_apply]
  show V m c main_v14 _ = _
  refine congrArg (V m c main_v14 : S1x128.Idx → EReal) (funext fun a => Fin.ext ?_)
  match a with
  | ⟨0, _⟩ => show win0_6.index t (0 : Fin 2) * 1 + 1 * i.val = i.val; rw [e0]; omega
  | ⟨1, _⟩ => show win0_6.index t (1 : Fin 2) * 128 + 1 * j.val = j.val; rw [e1]; omega

/-! ## What a point writes back -/

/-- Entry (p, q) of the stored value at point `t` is the result function at (5000 t + p, q). -/
theorem pay_block (c : Dev nD) (t : Fin cfg0.N) (p : Fin 5000) (q : Fin 128) (n : Fin 50000) (hn : n.val = t.val * 5000 + p.val) :
    k0_pay1 (F := Ideal) (iblk m c 0 t) (iblk m c 1 t) (iblk m c 2 t) (iblk m c 3 t) (iblk m c 4 t) (iblk m c 5 t) (iblk m c 6 t) (ix2 p q)
      = result m c (ix2 n q) := by
  refine (Body.pay_spec (iblk m c 0 t) (iblk m c 1 t) (iblk m c 2 t) (iblk m c 3 t) (iblk m c 4 t) (iblk m c 5 t) (iblk m c 6 t)
    (m ((c : Thread nD τ).loc main_arg5)) (m ((c : Thread nD τ).loc main_arg6)) (m ((c : Thread nD τ).loc main_arg7)) (m ((c : Thread nD τ).loc main_arg8))
    (fun k h => (blk2_apply m c t k h).trans (HostSide.w1a_apply m c k h))
    (fun k h => (blk3_apply m c t k h).trans (HostSide.w1b_apply m c k h))
    (fun h => (blk4_apply m c t 0 h).trans (HostSide.b1_apply m c h))
    (fun h q => (blk5_apply m c t h q).trans (HostSide.w2t_apply m c h q))
    (fun q => (blk6_apply m c t 0 q).trans (HostSide.b2_apply m c q)) p q).trans ?_
  unfold result
  rw [Cert.Mlp.out_ix2]
  have e0 : (fun k : Fin 128 => (iblk m c 0 t : S5000x128.Idx → EReal) (ix2 p k)) = fun k => m ((c : Thread nD τ).loc main_arg0) (ix2 n k) :=
    funext fun k => blk0_apply m c t p k n hn
  have e1 : (fun k : Fin 128 => (iblk m c 1 t : S5000x128.Idx → EReal) (ix2 p k)) = fun k => HostSide.agg m c (ix2 n k) :=
    funext fun k => blk1_apply m c t p k n hn
  rw [e0, e1]

/-- Entry (p, q) of block `t` of ANY 50000 × 128 array laid out as the result is entry (5000 t + p, q) of the array. -/
theorem read_blk7 (G : S50000x128.Idx → EReal) (t : Fin cfg0.N) (p : Fin 5000) (q : Fin 128) (n : Fin 50000)
    (hn : n.val = t.val * 5000 + p.val) :
    (((cfg0.win 7).blk t).view.read (Elt Ideal) G : S5000x128.Idx → EReal) (ix2 p q) = G (ix2 n q) := by
  obtain ⟨-, -, -, -, -, -, -, -, -, -, -, -, -, -, e0, e1⟩ := idx_facts t
  rw [View.read_apply]
  show G _ = _
  refine congrArg G (funext fun a => Fin.ext ?_)
  match a with
  | ⟨0, _⟩ => show win0_7.index t (0 : Fin 2) * 5000 + 1 * p.val = n.val; rw [e0, hn]; omega
  | ⟨1, _⟩ => show win0_7.index t (1 : Fin 2) * 128 + 1 * q.val = q.val; rw [e1]; omega

/-- The stored value at point `t` is, entry by entry, block `t` of the result function. -/
theorem stored_eq (c : Dev nD) (t : Fin cfg0.N) (j : S5000x128.Idx) :
    k0_pay1 (F := Ideal) (iblk m c 0 t) (iblk m c 1 t) (iblk m c 2 t) (iblk m c 3 t) (iblk m c 4 t) (iblk m c 5 t) (iblk m c 6 t) j
      = (((cfg0.win 7).blk t).view.read (Elt Ideal) (result m c) : S5000x128.Idx → EReal) j := by
  obtain ⟨p, q, rfl⟩ : ∃ (p : Fin 5000) (q : Fin 128), j = ix2 p q := ⟨j 0, j 1, eq_ix2 j⟩
  have ht : t.val < 10 := Nat.lt_of_lt_of_eq t.isLt (N_0 : cfg0.N = 10)
  have hp : p.val < 5000 := p.isLt
  exact (pay_block m c t p q ⟨t.val * 5000 + p.val, by omega⟩ rfl).trans
    (read_blk7 (result m c) t p q ⟨t.val * 5000 + p.val, by omega⟩ rfl).symm

/-- WHAT POINT `t` WRITES BACK is block `t` of the result function. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  funext j
  exact stored_eq m c t j

/-! ## The ten blocks cover the array -/

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v15).slice (win0_7.rect t)).set ↔ _
  rw [View.set_slice_whole, Rect.mem_set_unit]
  exact Iff.rfl

/-- Row `r` lies in the block of point `r / 5000`. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

/-- THE RESULT ARRAY after the run is the result function. -/
theorem final (c : Dev nD) : (dats m 0 c).arrAt 7 cfg0.N = result m c :=
  (dats m 0 c).arrAt_eq_of_cover 7 (result m c) (fun t _ => flushed_eq m c t) cover

/-! ## The run, read -/

/-- Every weakly fair execution of the kernel's program terminates with the result array at the result function and
    the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Result

end
-- ==== Proof.RefValue.lean ====
/-
  The reference program's result, read entry by entry, is `Mlp.out`.

  The reference concatenates each node's features with its aggregated edge features into one 256-wide row, multiplies
  by the transposed first-layer weight (a 256-term sum), adds the bias, takes the maximum with zero, multiplies by the
  transposed second-layer weight and adds the second bias. The 256-term sum over the concatenated row is the sum over
  its node half plus the sum over its aggregate half (`Mlp.sum_halves`): in the node half the concatenation reads the
  node features, in the aggregate half the aggregated edge features. The aggregation itself (a scatter-add of the
  edge features by destination node) is carried as one opaque array: it is never opened.
-/
import proofs.«158334_j28346784153766_1_alg».proof.Proof.Gen.ReferenceIdeal.Read
import proofs.«158334_j28346784153766_1_alg».proof.Proof.Spec
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x128, .f32⟩ : BufTy).Contents (Elt Ideal)) (x5 : (⟨S256x256, .f32⟩ : BufTy).Contents (Elt Ideal))
  (x6 : (⟨S256, .f32⟩ : BufTy).Contents (Elt Ideal)) (x7 : (⟨S128x256, .f32⟩ : BufTy).Contents (Elt Ideal))
  (x8 : (⟨S128, .f32⟩ : BufTy).Contents (Elt Ideal))

/-- In its first 128 columns the concatenated row is the node's features. -/
theorem cat_lo (n : Fin 50000) (h : Fin 256) (k : Fin 128) :
    val_main_v5 (F := Ideal) x0 x1 x2 (lidx_main_v7 (ix2 n h) (Cert.Mlp.lo k)) = x0 (ix2 n k) := by
  unfold val_main_v5
  refine concatenate_pair_apply_left (t := S50000x256) (s₁ := S50000x128) (s₂ := S50000x128) 1 x0 (val_main_v4 (F := Ideal) x1 x2)
    concatenates_S50000x128_S50000x128_S50000x256_d1 (lidx_main_v7 (ix2 n h) (Cert.Mlp.lo k)) rfl (ix2 n k) (fun b => ?_)
  match b with
  | ⟨0, _⟩ => rfl
  | ⟨1, _⟩ => rfl

/-- In its last 128 columns it is the node's aggregated edge features. -/
theorem cat_hi (n : Fin 50000) (h : Fin 256) (k : Fin 128) :
    val_main_v5 (F := Ideal) x0 x1 x2 (lidx_main_v7 (ix2 n h) (Cert.Mlp.hi k)) = val_main_v4 (F := Ideal) x1 x2 (ix2 n k) := by
  unfold val_main_v5
  refine concatenate_pair_apply_right (t := S50000x256) (s₁ := S50000x128) (s₂ := S50000x128) 1 x0 (val_main_v4 (F := Ideal) x1 x2)
    concatenates_S50000x128_S50000x128_S50000x256_d1 (lidx_main_v7 (ix2 n h) (Cert.Mlp.hi k)) rfl rfl (ix2 n k) (fun b hb => ?_) ?_
  · match b with
    | ⟨0, _⟩ => rfl
    | ⟨1, _⟩ => exact absurd rfl hb
  · show k.val + 128 = 128 + k.val
    omega

/-- The transposed first-layer weight at (input column `k`, unit `h`) is `W1` at (h, k). -/
theorem w1_at (n : Fin 50000) (h : Fin 256) (k : Fin 256) :
    val_main_v6 (F := Ideal) x5 (ridx_main_v7 (ix2 n h) k) = x5 (ix2 h k) := by
  rw [val_main_v6_apply]
  exact congrArg x5 (funext fun a => Fin.ext (by
    match a with
    | ⟨0, _⟩ => rfl
    | ⟨1, _⟩ => rfl))

/-- The first bias, broadcast down the rows. -/
theorem b1_at (n : Fin 50000) (h : Fin 256) : val_main_v9 (F := Ideal) x6 (ix2 n h) = x6 (ix1 h) := by
  rw [val_main_v9_apply, val_main_v8_apply]
  exact congrArg x6 (funext fun a => Fin.ext (by
    match a with
    | ⟨0, _⟩ => rfl))

/-- The hidden layer at (node `n`, unit `h`). -/
theorem hidden_at (n : Fin 50000) (h : Fin 256) :
    val_main_v11 (F := Ideal) x0 x1 x2 x5 x6 (ix2 n h)
      = Cert.Mlp.hidden (fun k => x0 (ix2 n k)) (fun k => val_main_v4 (F := Ideal) x1 x2 (ix2 n k)) x5 x6 h := by
  rw [val_main_v11_apply, val_main_v10_apply, val_main_v7_apply, b1_at, Cert.Mlp.sum_halves]
  unfold Cert.Mlp.hidden
  simp only [cat_lo, cat_hi, w1_at]
  rfl

/-- The transposed second-layer weight at (unit `h`, feature `q`) is `W2` at (q, h). -/
theorem w2_at (n : Fin 50000) (q : Fin 128) (h : Fin 256) :
    val_main_v12 (F := Ideal) x7 (ridx_main_v13 (ix2 n q) h) = x7 (ix2 q h) := by
  rw [val_main_v12_apply]
  exact congrArg x7 (funext fun a => Fin.ext (by
    match a with
    | ⟨0, _⟩ => rfl
    | ⟨1, _⟩ => rfl))

/-- The second bias, broadcast down the rows. -/
theorem b2_at (n : Fin 50000) (q : Fin 128) : val_main_v15 (F := Ideal) x8 (ix2 n q) = x8 (ix1 q) := by
  rw [val_main_v15_apply, val_main_v14_apply]
  exact congrArg x8 (funext fun a => Fin.ext (by
    match a with
    | ⟨0, _⟩ => rfl))

/-- THE REFERENCE'S RESULT is `Mlp.out` of the node features, the aggregated edge features and the parameters. -/
theorem result_eq :
    val_main_v16 (F := Ideal) x0 x1 x2 x5 x6 x7 x8 = Cert.Mlp.out x0 (val_main_v4 (F := Ideal) x1 x2) x5 x6 x7 x8 := by
  funext i
  obtain ⟨n, q, rfl⟩ : ∃ (n : Fin 50000) (q : Fin 128), i = ix2 n q := ⟨i 0, i 1, eq_ix2 i⟩
  rw [Cert.Mlp.out_ix2, val_main_v16_apply, val_main_v13_apply, b2_at]
  unfold Cert.Mlp.outRow
  refine congrArg (· + x8 (ix1 q)) (Finset.sum_congr rfl fun h _ => ?_)
  have e1 : lidx_main_v13 (ix2 n q) h = ix2 n h := funext fun a => Fin.ext (by
    match a with
    | ⟨0, _⟩ => rfl
    | ⟨1, _⟩ => rfl)
  rw [e1, hidden_at, w2_at]

end Cert.ReferenceIdeal.RefValue

end
-- ==== Proof.lean ====
/-
  A two-layer perceptron over graph nodes: each node's 128 features, concatenated with the sum of the features of
  the edges that point at it, go through a 256 → 256 linear layer, a maximum with zero, and a 256 → 128 linear layer.

  The kernel's program and the reference compute the edge sums the same way (one scatter-add, carried here as an
  opaque array that is never opened). They differ in how the first layer is laid out. The reference multiplies the
  concatenated 256-wide row by the whole weight matrix; the kernel keeps the two 128-wide halves apart, multiplies
  each by its half of the weight matrix and adds the two products. On the extended reals the two agree because a sum
  over 256 indices is the sum over the first 128 plus the sum over the last 128 — commutativity and associativity of
  addition only, so no finiteness of the inputs is used — and because rounding to a narrower float format is the
  identity there. The kernel also works on ten blocks of 5000 rows, one per grid point; every block it writes is the
  corresponding block of one whole-array function, and the ten blocks cover the array.

  The three frames are the programs' own runs (the two kernel programs' generated frame runs, the reference's generated
  run with its result dropped); the idealization rewrote nothing, so there is nothing to preserve; the value claim sets
  the kernel's run beside the reference's, both ending at `Mlp.out` of arguments that agree.
-/
import proofs.«158334_j28346784153766_1_alg».proof.Defs
import proofs.«158334_j28346784153766_1_alg».proof.Proof.Gen.Kernel
import proofs.«158334_j28346784153766_1_alg».proof.Proof.Gen.Kernel.Skeleton
import proofs.«158334_j28346784153766_1_alg».proof.Proof.Gen.Kernel.Launch
import proofs.«158334_j28346784153766_1_alg».proof.Proof.Gen.Kernel.Points
import proofs.«158334_j28346784153766_1_alg».proof.Proof.Gen.Kernel.Frame
import proofs.«158334_j28346784153766_1_alg».proof.Proof.Gen.KernelIdeal
import proofs.«158334_j28346784153766_1_alg».proof.Proof.Gen.KernelIdeal.Skeleton
import proofs.«158334_j28346784153766_1_alg».proof.Proof.Gen.KernelIdeal.Launch
import proofs.«158334_j28346784153766_1_alg».proof.Proof.Gen.KernelIdeal.Points
import proofs.«158334_j28346784153766_1_alg».proof.Proof.Gen.KernelIdeal.Frame
import proofs.«158334_j28346784153766_1_alg».proof.Proof.Gen.ReferenceIdeal
import proofs.«158334_j28346784153766_1_alg».proof.Proof.Gen.Pre_finite_inputs
import proofs.«158334_j28346784153766_1_alg».proof.Proof.Gen.KernelIdeal.Value
import proofs.«158334_j28346784153766_1_alg».proof.Proof.Gen.ReferenceIdeal.Run
import proofs.«158334_j28346784153766_1_alg».proof.Proof.Gen.ReferenceIdeal.Read
import proofs.«158334_j28346784153766_1_alg».proof.Proof.Spec
import proofs.«158334_j28346784153766_1_alg».proof.Proof.KernelValue
import proofs.«158334_j28346784153766_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs aggregate the edge features by the same scatter-add of the same arguments. -/
theorem agg_eq (m : (ℓ : Loc Cert.KernelIdeal.nD Cert.KernelIdeal.τ Cert.KernelIdeal.sig) → Buf (Elt Ideal) ℓ)
    (c : Dev Cert.KernelIdeal.nD) :
    Cert.ReferenceIdeal.Read.val_main_v4 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.HostSide.agg m c := rfl

/-- From memories that agree on the arguments both programs end with the result at `Mlp.out` of the node features,
    the aggregated edge features and the two layers' parameters. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v16_eq, Cert.ReferenceIdeal.RefValue.result_eq, a0, a1, a2, a5, a6, a7, a8, agg_eq m c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
